-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x50x128x64 : Shape := ⟨4, ![32, 50, 128, 64]⟩
abbrev S32x50 : Shape := ⟨2, ![32, 50]⟩
abbrev S32x75x128x64 : Shape := ⟨4, ![32, 75, 128, 64]⟩
abbrev S64x256 : Shape := ⟨2, ![64, 256]⟩
abbrev S256 : Shape := ⟨1, ![256]⟩
abbrev S_ : Shape := ⟨0, ![]⟩

class Facts : Prop where
  bcast_S_S32x50x128x64 : S_.BroadcastsInDim S32x50x128x64 (![] : Fin 0 → Fin S32x50x128x64.rank)
  reducesTo_S32x50x128x64_S_d0_1_2_3 : S32x50x128x64.ReducesTo [0, 1, 2, 3] S_
  h_S_ : 0 < S_.numel
  bcast_S_S32x75x128x64 : S_.BroadcastsInDim S32x75x128x64 (![] : Fin 0 → Fin S32x75x128x64.rank)
  reducesTo_S32x75x128x64_S_d0_1_2_3 : S32x75x128x64.ReducesTo [0, 1, 2, 3] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S32x50x128x64 .f32) (main_arg1 : IVec S32x50 32) (main_arg2 : FVec F S32x75x128x64 .f32) (main_arg3 : FVec F S64x256 .f32) (main_arg4 : FVec F S256 .f32) : IVec S_ 1 :=
  let main_v0 : FVec F S32x50x128x64 .f32 := Host.absf main_arg0
  let main_cst : FVec F S_ .f32 := constant S_ .f32 0x7F800000#32
  let main_v1 : FVec F S32x50x128x64 .f32 := broadcastInDim S32x50x128x64 ![] bcast_S_S32x50x128x64 main_cst
  let main_v2 : IVec S32x50x128x64 1 := cmpf .olt main_v0 main_v1
  let main_c : IVec S_ 1 := constantI S_ 1 1#1
  let main_v3 : IVec S_ 1 := (fun x v => Host.reduce IntOp.andi x v reducesTo_S32x50x128x64_S_d0_1_2_3 h_S_) main_v2 main_c
  let main_v4 : FVec F S32x75x128x64 .f32 := Host.absf main_arg2
  let main_cst_0 : FVec F S_ .f32 := constant S_ .f32 0x7F800000#32
  let main_v5 : FVec F S32x75x128x64 .f32 := broadcastInDim S32x75x128x64 ![] bcast_S_S32x75x128x64 main_cst_0
  let main_v6 : IVec S32x75x128x64 1 := cmpf .olt main_v4 main_v5
  let main_c_1 : IVec S_ 1 := constantI S_ 1 1#1
  let main_v7 : IVec S_ 1 := (fun x v => Host.reduce IntOp.andi x v reducesTo_S32x75x128x64_S_d0_1_2_3 h_S_) main_v6 main_c_1
  let main_v8 : IVec S_ 1 := andi main_v3 main_v7
  let main_v9 : FVec F S64x256 .f32 := Host.absf main_arg3
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S32x50x128x64 : Shape := ⟨4, ![32, 50, 128, 64]⟩
abbrev S32x50 : Shape := ⟨2, ![32, 50]⟩
abbrev S32x75x128x64 : Shape := ⟨4, ![32, 75, 128, 64]⟩
abbrev S64x256 : Shape := ⟨2, ![64, 256]⟩
abbrev S256 : Shape := ⟨1, ![256]⟩
abbrev S1x256 : Shape := ⟨2, ![1, 256]⟩
abbrev S1600x128x64 : Shape := ⟨3, ![1600, 128, 64]⟩
abbrev S2400x128x64 : Shape := ⟨3, ![2400, 128, 64]⟩
abbrev S1600x256 : Shape := ⟨2, ![1600, 256]⟩
abbrev S200x128x64 : Shape := ⟨3, ![200, 128, 64]⟩
abbrev S200x256 : Shape := ⟨2, ![200, 256]⟩
abbrev S200x64 : Shape := ⟨2, ![200, 64]⟩
abbrev S32x50x256 : Shape := ⟨3, ![32, 50, 256]⟩
abbrev S2400x256 : Shape := ⟨2, ![2400, 256]⟩
abbrev S32x75x256 : Shape := ⟨3, ![32, 75, 256]⟩
abbrev S32x50x1 : Shape := ⟨3, ![32, 50, 1]⟩
abbrev S5 : Shape := ⟨1, ![5]⟩
abbrev S1x1x5 : Shape := ⟨3, ![1, 1, 5]⟩
abbrev S32x50x5 : Shape := ⟨3, ![32, 50, 5]⟩
abbrev S_ : Shape := ⟨0, ![]⟩
abbrev S32x5 : Shape := ⟨2, ![32, 5]⟩
abbrev S32x5x256 : Shape := ⟨3, ![32, 5, 256]⟩
abbrev S32x5x1 : Shape := ⟨3, ![32, 5, 1]⟩
abbrev S32x75x1x256 : Shape := ⟨4, ![32, 75, 1, 256]⟩
abbrev S32x1x5x256 : Shape := ⟨4, ![32, 1, 5, 256]⟩
abbrev S32x75x5x256 : Shape := ⟨4, ![32, 75, 5, 256]⟩
abbrev S32x75x5 : Shape := ⟨3, ![32, 75, 5]⟩
abbrev S2400x5 : Shape := ⟨2, ![2400, 5]⟩

abbrev nBuf : Space → Nat
  | .hbm => 36
  | .vmem => 12
  | .smem => 0
  | _ => 0

abbrev bufTy : (tb : Table) → Fin (tcTables nBuf tb) → BufTy
  | .hbm, ⟨0, _⟩ => ⟨S32x50x128x64, .f32⟩
  | .hbm, ⟨1, _⟩ => ⟨S32x50, .i32⟩
  | .hbm, ⟨2, _⟩ => ⟨S32x75x128x64, .f32⟩
  | .hbm, ⟨3, _⟩ => ⟨S64x256, .f32⟩
  | .hbm, ⟨4, _⟩ => ⟨S256, .f32⟩
  | .hbm, ⟨5, _⟩ => ⟨S1x256, .f32⟩
  | .hbm, ⟨6, _⟩ => ⟨S1600x128x64, .f32⟩
  | .hbm, ⟨7, _⟩ => ⟨S2400x128x64, .f32⟩
  | .hbm, ⟨8, _⟩ => ⟨S1600x256, .f32⟩
  | .hbm, ⟨9, _⟩ => ⟨S32x50x256, .f32⟩
  | .hbm, ⟨10, _⟩ => ⟨S2400x256, .f32⟩
  | .hbm, ⟨11, _⟩ => ⟨S32x75x256, .f32⟩
  | .hbm, ⟨12, _⟩ => ⟨S32x50x1, .i32⟩
  | .hbm, ⟨13, _⟩ => ⟨S5, .i32⟩
  | .hbm, ⟨14, _⟩ => ⟨S1x1x5, .i32⟩
  | .hbm, ⟨15, _⟩ => ⟨S32x50x5, .i32⟩
  | .hbm, ⟨16, _⟩ => ⟨S32x50x5, .i32⟩
  | .hbm, ⟨17, _⟩ => ⟨S32x50x5, .i1⟩
  | .hbm, ⟨18, _⟩ => ⟨S32x50x5, .f32⟩
  | .hbm, ⟨19, _⟩ => ⟨S_, .f32⟩
  | .hbm, ⟨20, _⟩ => ⟨S32x5, .f32⟩
  | .hbm, ⟨21, _⟩ => ⟨S32x5x256, .f32⟩
  | .hbm, ⟨22, _⟩ => ⟨S32x5x1, .f32⟩
  | .hbm, ⟨23, _⟩ => ⟨S32x5x256, .f32⟩
  | .hbm, ⟨24, _⟩ => ⟨S32x5x256, .f32⟩
  | .hbm, ⟨25, _⟩ => ⟨S32x75x1x256, .f32⟩
  | .hbm, ⟨26, _⟩ => ⟨S32x1x5x256, .f32⟩
  | .hbm, ⟨27, _⟩ => ⟨S32x75x5x256, .f32⟩
  | .hbm, ⟨28, _⟩ => ⟨S32x75x5x256, .f32⟩
  | .hbm, ⟨29, _⟩ => ⟨S32x75x5x256, .f32⟩
  | .hbm, ⟨30, _⟩ => ⟨S32x75x5x256, .f32⟩
  | .hbm, ⟨31, _⟩ => ⟨S_, .f32⟩
  | .hbm, ⟨32, _⟩ => ⟨S32x75x5, .f32⟩
  | .hbm, ⟨33, _⟩ => ⟨S32x75x5, .f32⟩
  | .hbm, ⟨34, _⟩ => ⟨S32x75x5, .f32⟩
  | .hbm, ⟨35, _⟩ => ⟨S2400x5, .f32⟩
  | .local _ .vmem, ⟨0, _⟩ => ⟨S200x128x64, .f32⟩
  | .local _ .vmem, ⟨1, _⟩ => ⟨S200x128x64, .f32⟩
  | .local _ .vmem, ⟨2, _⟩ => ⟨S64x256, .f32⟩
  | .local _ .vmem, ⟨3, _⟩ => ⟨S1x256, .f32⟩
  | .local _ .vmem, ⟨4, _⟩ => ⟨S200x256, .f32⟩
  | .local _ .vmem, ⟨5, _⟩ => ⟨S200x256, .f32⟩
  | .local _ .vmem, ⟨6, _⟩ => ⟨S200x128x64, .f32⟩
  | .local _ .vmem, ⟨7, _⟩ => ⟨S200x128x64, .f32⟩
  | .local _ .vmem, ⟨8, _⟩ => ⟨S64x256, .f32⟩
  | .local _ .vmem, ⟨9, _⟩ => ⟨S1x256, .f32⟩
  | .local _ .vmem, ⟨10, _⟩ => ⟨S200x256, .f32⟩
  | .local _ .vmem, ⟨11, _⟩ => ⟨S200x256, .f32⟩
  | _, _ => ⟨S32x50x128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst_0 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S200x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![12], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S200x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S256_S1x256 : S256.ShapeCasts S1x256
  shapeCasts_S32x50x128x64_S1600x128x64 : S32x50x128x64.ShapeCasts S1600x128x64
  shapeCasts_S32x75x128x64_S2400x128x64 : S32x75x128x64.ShapeCasts S2400x128x64
  inb_S200x128x64_S200x128x64_0_0_0 : ∀ a, (![0, 0, 0] : Fin 3 → Nat) a + S200x128x64.size a ≤ S200x128x64.size a
  h_S200x128x64 : 0 < S200x128x64.numel
  shapeCasts_S200x128x64_S200x128x64 : S200x128x64.ShapeCasts S200x128x64
  reduces_S200x128x64_S200x64 : S200x128x64.Reduces [1] S200x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S200x256 : S1x256.Broadcasts S200x256
  inb_S200x256_S200x256_0_0 : ∀ a, (![0, 0] : Fin 2 → Nat) a + S200x256.size a ≤ S200x256.size a
  h_S200x256 : 0 < S200x256.numel
  shapeCasts_S1600x256_S32x50x256 : S1600x256.ShapeCasts S32x50x256
  shapeCasts_S2400x256_S32x75x256 : S2400x256.ShapeCasts S32x75x256
  bcast_S32x50_S32x50x1_0_1 : S32x50.BroadcastsInDim S32x50x1 (![0, 1] : Fin 2 → Fin S32x50x1.rank)
  bcast_S5_S1x1x5_2 : S5.BroadcastsInDim S1x1x5 (![2] : Fin 1 → Fin S1x1x5.rank)
  bcast_S32x50x1_S32x50x5_0_1_2 : S32x50x1.BroadcastsInDim S32x50x5 (![0, 1, 2] : Fin 3 → Fin S32x50x5.rank)
  bcast_S1x1x5_S32x50x5_0_1_2 : S1x1x5.BroadcastsInDim S32x50x5 (![0, 1, 2] : Fin 3 → Fin S32x50x5.rank)
  reducesTo_S32x50x5_S32x5_d1 : S32x50x5.ReducesTo [1] S32x5
  h_S_ : 0 < S_.numel
  bcast_S32x5_S32x5x1_0_1 : S32x5.BroadcastsInDim S32x5x1 (![0, 1] : Fin 2 → Fin S32x5x1.rank)
  bcast_S32x5x1_S32x5x256_0_1_2 : S32x5x1.BroadcastsInDim S32x5x256 (![0, 1, 2] : Fin 3 → Fin S32x5x256.rank)
  bcast_S32x75x256_S32x75x1x256_0_1_3 : S32x75x256.BroadcastsInDim S32x75x1x256 (![0, 1, 3] : Fin 3 → Fin S32x75x1x256.rank)
  bcast_S32x5x256_S32x1x5x256_0_2_3 : S32x5x256.BroadcastsInDim S32x1x5x256 (![0, 2, 3] : Fin 3 → Fin S32x1x5x256.rank)
  bcast_S32x75x1x256_S32x75x5x256_0_1_2_3 : S32x75x1x256.BroadcastsInDim S32x75x5x256 (![0, 1, 2, 3] : Fin 4 → Fin S32x75x5x256.rank)
  bcast_S32x1x5x256_S32x75x5x256_0_1_2_3 : S32x1x5x256.BroadcastsInDim S32x75x5x256 (![0, 1, 2, 3] : Fin 4 → Fin S32x75x5x256.rank)
  reducesTo_S32x75x5x256_S32x75x5_d3 : S32x75x5x256.ReducesTo [3] S32x75x5
  shapeCasts_S32x75x5_S2400x5 : S32x75x5.ShapeCasts S2400x5
  dot_S200x64_S64x256_S200x256_1_0_0_1_n_n_wf : DotDims.WF S200x64 S64x256 S200x256 [1] [0] [0] [1] [] []
  dot_S32x50x5_S32x50x256_S32x5x256_1_1_2_2_0_0_wf : DotDims.WF S32x50x5 S32x50x256 S32x5x256 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x128x64.size a ≤ S1600x128x64.size a
  hwx0_0 : ∀ i : grid0.Coords, EltTy.bits .f32 = 32 ∨ (Rect.block (s := S1600x128x64) S200x128x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x256.size a ≤ S1600x256.size a
  hwx0_3 : ∀ i : grid0.Coords, EltTy.bits .f32 = 32 ∨ (Rect.block (s := S1600x256) S200x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x128x64.size a ≤ S2400x128x64.size a
  hwx1_0 : ∀ i : grid1.Coords, EltTy.bits .f32 = 32 ∨ (Rect.block (s := S2400x128x64) S200x128x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x256.size a ≤ S64x256.size a
  hwx1_1 : ∀ i : grid1.Coords, EltTy.bits .f32 = 32 ∨ (Rect.block (s := S64x256) S64x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S200x256.size a ≤ S2400x256.size a
  hwx1_3 : ∀ i : grid1.Coords, EltTy.bits .f32 = 32 ∨ (Rect.block (s := S2400x256) S200x256.size (cc1_transform_3 i) (hinb1_3 i)).WholeWords (EltTy.packing .f32)

variable [Facts₀]

def dot_S200x64_S64x256_S200x256_1_0_0_1_n_n : DotDims S200x64 S64x256 S200x256 where
  lhsContracting := [1]
  rhsContracting := [0]
  lhsNonContracting := [0]
  rhsNonContracting := [1]
  lhsBatch := []
  rhsBatch := []
  wf := dot_S200x64_S64x256_S200x256_1_0_0_1_n_n_wf
def dot_S32x50x5_S32x50x256_S32x5x256_1_1_2_2_0_0 : DotDims S32x50x5 S32x50x256 S32x5x256 where
  lhsContracting := [1]
  rhsContracting := [1]
  lhsNonContracting := [2]
  rhsNonContracting := [2]
  lhsBatch := [0]
  rhsBatch := [0]
  wf := dot_S32x50x5_S32x50x256_S32x5x256_1_1_2_2_0_0_wf

abbrev win0_0 : Pipeline.Window sig grid0 :=
  Pipeline.Window.ofSpec (Memref.whole main_v1) S200x128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S200x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S200x128x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S200x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S32x50x128x64 : Shape := ⟨4, ![32, 50, 128, 64]⟩
abbrev S32x50 : Shape := ⟨2, ![32, 50]⟩
abbrev S32x75x128x64 : Shape := ⟨4, ![32, 75, 128, 64]⟩
abbrev S64x256 : Shape := ⟨2, ![64, 256]⟩
abbrev S256 : Shape := ⟨1, ![256]⟩
abbrev S_ : Shape := ⟨0, ![]⟩
abbrev S32x50x64 : Shape := ⟨3, ![32, 50, 64]⟩
abbrev S32x50x256 : Shape := ⟨3, ![32, 50, 256]⟩
abbrev S1x1x256 : Shape := ⟨3, ![1, 1, 256]⟩
abbrev S32x75x64 : Shape := ⟨3, ![32, 75, 64]⟩
abbrev S32x75x256 : Shape := ⟨3, ![32, 75, 256]⟩
abbrev S32x50x1 : Shape := ⟨3, ![32, 50, 1]⟩
abbrev S5 : Shape := ⟨1, ![5]⟩
abbrev S1x1x5 : Shape := ⟨3, ![1, 1, 5]⟩
abbrev S32x50x5 : Shape := ⟨3, ![32, 50, 5]⟩
abbrev S32x5 : Shape := ⟨2, ![32, 5]⟩
abbrev S32x5x256 : Shape := ⟨3, ![32, 5, 256]⟩
abbrev S32x5x1 : Shape := ⟨3, ![32, 5, 1]⟩
abbrev S32x75x1x256 : Shape := ⟨4, ![32, 75, 1, 256]⟩
abbrev S32x1x5x256 : Shape := ⟨4, ![32, 1, 5, 256]⟩
abbrev S32x75x5x256 : Shape := ⟨4, ![32, 75, 5, 256]⟩
abbrev S32x75x5 : Shape := ⟨3, ![32, 75, 5]⟩
abbrev S2400x5 : Shape := ⟨2, ![2400, 5]⟩

abbrev nBuf : Space → Nat
  | .hbm => 47
  | .vmem => 0
  | .smem => 0
  | _ => 0

abbrev bufTy : (tb : Table) → Fin (tcTables nBuf tb) → BufTy
  | .hbm, ⟨0, _⟩ => ⟨S32x50x128x64, .f32⟩
  | .hbm, ⟨1, _⟩ => ⟨S32x50, .i32⟩
  | .hbm, ⟨2, _⟩ => ⟨S32x75x128x64, .f32⟩
  | .hbm, ⟨3, _⟩ => ⟨S64x256, .f32⟩
  | .hbm, ⟨4, _⟩ => ⟨S256, .f32⟩
  | .hbm, ⟨5, _⟩ => ⟨S_, .f32⟩
  | .hbm, ⟨6, _⟩ => ⟨S32x50x64, .f32⟩
  | .hbm, ⟨7, _⟩ => ⟨S32x50x256, .f32⟩
  | .hbm, ⟨8, _⟩ => ⟨S_, .f32⟩
  | .hbm, ⟨9, _⟩ => ⟨S32x50x256, .f32⟩
  | .hbm, ⟨10, _⟩ => ⟨S32x50x256, .f32⟩
  | .hbm, ⟨11, _⟩ => ⟨S1x1x256, .f32⟩
  | .hbm, ⟨12, _⟩ => ⟨S32x50x256, .f32⟩
  | .hbm, ⟨13, _⟩ => ⟨S32x50x256, .f32⟩
  | .hbm, ⟨14, _⟩ => ⟨S_, .f32⟩
  | .hbm, ⟨15, _⟩ => ⟨S32x75x64, .f32⟩
  | .hbm, ⟨16, _⟩ => ⟨S32x75x256, .f32⟩
  | .hbm, ⟨17, _⟩ => ⟨S_, .f32⟩
  | .hbm, ⟨18, _⟩ => ⟨S32x75x256, .f32⟩
  | .hbm, ⟨19, _⟩ => ⟨S32x75x256, .f32⟩
  | .hbm, ⟨20, _⟩ => ⟨S1x1x256, .f32⟩
  | .hbm, ⟨21, _⟩ => ⟨S32x75x256, .f32⟩
  | .hbm, ⟨22, _⟩ => ⟨S32x75x256, .f32⟩
  | .hbm, ⟨23, _⟩ => ⟨S32x50x1, .i32⟩
  | .hbm, ⟨24, _⟩ => ⟨S5, .i32⟩
  | .hbm, ⟨25, _⟩ => ⟨S1x1x5, .i32⟩
  | .hbm, ⟨26, _⟩ => ⟨S32x50x5, .i32⟩
  | .hbm, ⟨27, _⟩ => ⟨S32x50x5, .i32⟩
  | .hbm, ⟨28, _⟩ => ⟨S32x50x5, .i1⟩
  | .hbm, ⟨29, _⟩ => ⟨S32x50x5, .f32⟩
  | .hbm, ⟨30, _⟩ => ⟨S_, .f32⟩
  | .hbm, ⟨31, _⟩ => ⟨S32x5, .f32⟩
  | .hbm, ⟨32, _⟩ => ⟨S32x5x256, .f32⟩
  | .hbm, ⟨33, _⟩ => ⟨S32x5x1, .f32⟩
  | .hbm, ⟨34, _⟩ => ⟨S32x5x256, .f32⟩
  | .hbm, ⟨35, _⟩ => ⟨S32x5x256, .f32⟩
  | .hbm, ⟨36, _⟩ => ⟨S32x75x1x256, .f32⟩
  | .hbm, ⟨37, _⟩ => ⟨S32x1x5x256, .f32⟩
  | .hbm, ⟨38, _⟩ => ⟨S32x75x5x256, .f32⟩
  | .hbm, ⟨39, _⟩ => ⟨S32x75x5x256, .f32⟩
  | .hbm, ⟨40, _⟩ => ⟨S32x75x5x256, .f32⟩
  | .hbm, ⟨41, _⟩ => ⟨S32x75x5x256, .f32⟩
  | .hbm, ⟨42, _⟩ => ⟨S_, .f32⟩
  | .hbm, ⟨43, _⟩ => ⟨S32x75x5, .f32⟩
  | .hbm, ⟨44, _⟩ => ⟨S32x75x5, .f32⟩
  | .hbm, ⟨45, _⟩ => ⟨S32x75x5, .f32⟩
  | .hbm, ⟨46, _⟩ => ⟨S2400x5, .f32⟩
  | _, _ => ⟨S32x50x128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]

class Facts₀ : Prop where
  reducesTo_S32x50x128x64_S32x50x64_d2 : S32x50x128x64.ReducesTo [2] S32x50x64
  h_S_ : 0 < S_.numel
  bcast_S_S32x50x256 : S_.BroadcastsInDim S32x50x256 (![] : Fin 0 → Fin S32x50x256.rank)
  bcast_S256_S1x1x256_2 : S256.BroadcastsInDim S1x1x256 (![2] : Fin 1 → Fin S1x1x256.rank)
  bcast_S1x1x256_S32x50x256_0_1_2 : S1x1x256.BroadcastsInDim S32x50x256 (![0, 1, 2] : Fin 3 → Fin S32x50x256.rank)
  reducesTo_S32x75x128x64_S32x75x64_d2 : S32x75x128x64.ReducesTo [2] S32x75x64
  bcast_S_S32x75x256 : S_.BroadcastsInDim S32x75x256 (![] : Fin 0 → Fin S32x75x256.rank)
  bcast_S1x1x256_S32x75x256_0_1_2 : S1x1x256.BroadcastsInDim S32x75x256 (![0, 1, 2] : Fin 3 → Fin S32x75x256.rank)
  bcast_S32x50_S32x50x1_0_1 : S32x50.BroadcastsInDim S32x50x1 (![0, 1] : Fin 2 → Fin S32x50x1.rank)
  bcast_S5_S1x1x5_2 : S5.BroadcastsInDim S1x1x5 (![2] : Fin 1 → Fin S1x1x5.rank)
  bcast_S32x50x1_S32x50x5_0_1_2 : S32x50x1.BroadcastsInDim S32x50x5 (![0, 1, 2] : Fin 3 → Fin S32x50x5.rank)
  bcast_S1x1x5_S32x50x5_0_1_2 : S1x1x5.BroadcastsInDim S32x50x5 (![0, 1, 2] : Fin 3 → Fin S32x50x5.rank)
  reducesTo_S32x50x5_S32x5_d1 : S32x50x5.ReducesTo [1] S32x5
  bcast_S32x5_S32x5x1_0_1 : S32x5.BroadcastsInDim S32x5x1 (![0, 1] : Fin 2 → Fin S32x5x1.rank)
  bcast_S32x5x1_S32x5x256_0_1_2 : S32x5x1.BroadcastsInDim S32x5x256 (![0, 1, 2] : Fin 3 → Fin S32x5x256.rank)
  bcast_S32x75x256_S32x75x1x256_0_1_3 : S32x75x256.BroadcastsInDim S32x75x1x256 (![0, 1, 3] : Fin 3 → Fin S32x75x1x256.rank)
  bcast_S32x5x256_S32x1x5x256_0_2_3 : S32x5x256.BroadcastsInDim S32x1x5x256 (![0, 2, 3] : Fin 3 → Fin S32x1x5x256.rank)
  bcast_S32x75x1x256_S32x75x5x256_0_1_2_3 : S32x75x1x256.BroadcastsInDim S32x75x5x256 (![0, 1, 2, 3] : Fin 4 → Fin S32x75x5x256.rank)
  bcast_S32x1x5x256_S32x75x5x256_0_1_2_3 : S32x1x5x256.BroadcastsInDim S32x75x5x256 (![0, 1, 2, 3] : Fin 4 → Fin S32x75x5x256.rank)
  reducesTo_S32x75x5x256_S32x75x5_d3 : S32x75x5x256.ReducesTo [3] S32x75x5
  shapeCasts_S32x75x5_S2400x5 : S32x75x5.ShapeCasts S2400x5
  dot_S32x50x64_S64x256_S32x50x256_2_0_01_1_n_n_wf : DotDims.WF S32x50x64 S64x256 S32x50x256 [2] [0] [0, 1] [1] [] []
  dot_S32x75x64_S64x256_S32x75x256_2_0_01_1_n_n_wf : DotDims.WF S32x75x64 S64x256 S32x75x256 [2] [0] [0, 1] [1] [] []
  dot_S32x50x5_S32x50x256_S32x5x256_1_1_2_2_0_0_wf : DotDims.WF S32x50x5 S32x50x256 S32x5x256 [1] [1] [2] [2] [0] [0]

variable [Facts₀]

def dot_S32x50x64_S64x256_S32x50x256_2_0_01_1_n_n : DotDims S32x50x64 S64x256 S32x50x256 where
  lhsContracting := [2]
  rhsContracting := [0]
  lhsNonContracting := [0, 1]
  rhsNonContracting := [1]
  lhsBatch := []
  rhsBatch := []
  wf := dot_S32x50x64_S64x256_S32x50x256_2_0_01_1_n_n_wf
def dot_S32x75x64_S64x256_S32x75x256_2_0_01_1_n_n : DotDims S32x75x64 S64x256 S32x75x256 where
  lhsContracting := [2]
  rhsContracting := [0]
  lhsNonContracting := [0, 1]
  rhsNonContracting := [1]
  lhsBatch := []
  rhsBatch := []
  wf := dot_S32x75x64_S64x256_S32x75x256_2_0_01_1_n_n_wf
def dot_S32x50x5_S32x50x256_S32x5x256_1_1_2_2_0_0 : DotDims S32x50x5 S32x50x256 S32x5x256 where
  lhsContracting := [1]
  rhsContracting := [1]
  lhsNonContracting := [2]
  rhsNonContracting := [2]
  lhsBatch := [0]
  rhsBatch := [0]
  wf := dot_S32x50x5_S32x50x256_S32x5x256_1_1_2_2_0_0_wf

class Facts : Prop extends Facts₀ where

variable [Facts]
-- ==== Proof.LibPlainDot.lean ====
/-
  A plain matrix product read at an index.  For dimension numbers that contract the left operand's second axis with
  the right operand's first and have no batch axes, the contraction  sum over k of l[(i, k)] * r[(k, j)]  ranges over
  the contraction shape's indices; that shape has one axis of extent K, so the sum is one over k < K.  The four
  coordinate facts (which coordinate of the output index or of the contraction index each operand index carries)
  are hypotheses: for a printed record each is decided by unfolding the record.
-/
import Idealize.ShloMosaic.Lib.ValueIdx
import Idealize.ShloMosaic.PureOps.Ideal.Laws

noncomputable section

namespace Cert.LibPlainDot

open Idealize.ShloMosaic Idealize.ShloMosaic.ValueIdx

/-- The contraction sum of a plain [M,K] x [K,N] product at output index i is the sum over k < K of
    l (i 0, k) * r (k, i 1). -/
theorem sum_plain {M K N : Nat} (d : DotDims (⟨2, ![M, K]⟩ : Shape) (⟨2, ![K, N]⟩ : Shape) (⟨2, ![M, N]⟩ : Shape))
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (l : (⟨2, ![M, K]⟩ : Shape).Idx → EReal) (r : (⟨2, ![K, N]⟩ : Shape).Idx → EReal) (p : Fin M) (c : Fin N) :
    ∑ k : d.contr.Idx, l (d.lhsIdx (ix2 p c) k) * r (d.rhsIdx (ix2 p c) k) = ∑ k : Fin K, l (ix2 p k) * r (ix2 k c) := by
  rw [← Equiv.sum_comp (contrEquiv1 d K hr hs).symm]
  refine Finset.sum_congr rfl fun k _ => ?_
  have hk := contrEquiv1_symm_val d K hr hs k
  have el : d.lhsIdx (ix2 p c) ((contrEquiv1 d K hr hs).symm k) = ix2 p k := funext fun a => Fin.ext (by
    match a with
    | ⟨0, _⟩ => exact hl0 _ _
    | ⟨1, _⟩ => exact (hl1 _ _).trans hk)
  have er : d.rhsIdx (ix2 p c) ((contrEquiv1 d K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.KernelRow.lean ====
/-
  One entry of the block an encoder grid point stores.

  The body loads a block x0 of 200 rows (each 128 time steps by 64 features), the projection x1 (64 by 256) and
  the bias row x2 (1 by 256), and stores, at row r and column d,
      ( sum over f < 64 of ( (sum over t < 128 of x0[r, t, f]) * 2^-7 ) * x1[f, d] )  +  x2[0, d].
  Read at the exact instance: the lane sum over the time axis is a plain sum, the change of float format before
  the matrix unit is the identity, the matrix product into a zero accumulator is the contraction sum over f, and
  the bias row is broadcast down the rows.  Both pallas calls run this same body.
-/
import proofs.«155804_j29351806501536_2_alg».proof.Proof.Gen.KernelIdeal.Skeleton
import proofs.«155804_j29351806501536_2_alg».proof.Proof.LibPlainDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Row

open Idealize.ShloMosaic Idealize.ShloMosaic.ValueIdx Cert.KernelIdeal Cert.KernelIdeal.Gen

/-! ## The matrix unit's dimension record: rows by features times features by columns -/

theorem dot_l0 (i : S200x256.Idx) (q : dot_S200x64_S64x256_S200x256_1_0_0_1_n_n.contr.Idx) :
    (dot_S200x64_S64x256_S200x256_1_0_0_1_n_n.lhsIdx i q 0).val = (i 0).val := by
  unfold DotDims.lhsIdx
  rw [dif_neg (show ¬(0 : Fin S200x64.rank) ∈ dot_S200x64_S64x256_S200x256_1_0_0_1_n_n.lhsBatch by decide),
    dif_pos (show (0 : Fin S200x64.rank) ∈ dot_S200x64_S64x256_S200x256_1_0_0_1_n_n.lhsNonContracting by decide)]
  rfl

theorem dot_l1 (i : S200x256.Idx) (q : dot_S200x64_S64x256_S200x256_1_0_0_1_n_n.contr.Idx) :
    (dot_S200x64_S64x256_S200x256_1_0_0_1_n_n.lhsIdx i q 1).val = (q ⟨0, by decide⟩).val :=
  dot_S200x64_S64x256_S200x256_1_0_0_1_n_n.lhsIdx_val_of_single rfl i q

theorem dot_r0 (i : S200x256.Idx) (q : dot_S200x64_S64x256_S200x256_1_0_0_1_n_n.contr.Idx) :
    (dot_S200x64_S64x256_S200x256_1_0_0_1_n_n.rhsIdx i q 0).val = (q ⟨0, by decide⟩).val :=
  dot_S200x64_S64x256_S200x256_1_0_0_1_n_n.rhsIdx_val_of_single rfl i q

theorem dot_r1 (i : S200x256.Idx) (q : dot_S200x64_S64x256_S200x256_1_0_0_1_n_n.contr.Idx) :
    (dot_S200x64_S64x256_S200x256_1_0_0_1_n_n.rhsIdx i q 1).val = (i 1).val := by
  unfold DotDims.rhsIdx
  rw [dif_neg (show ¬(1 : Fin S64x256.rank) ∈ dot_S200x64_S64x256_S200x256_1_0_0_1_n_n.rhsBatch by decide),
    dif_pos (show (1 : Fin S64x256.rank) ∈ dot_S200x64_S64x256_S200x256_1_0_0_1_n_n.rhsNonContracting by decide)]
  rfl

/-! ## The stored value at row r, column d -/

/-- The pooled-and-scaled left operand of the matrix unit at (r, f): the time sum of the block's row r at feature f,
    times 2^-7. -/
theorem pooled_apply (x0 : Vec Ideal S200x128x64 .f32) (hc : S200x128x64.ShapeCasts S200x128x64)
    (hr : S200x128x64.Reduces [1] S200x64) (hφ : FKind.Formats .f32)
    (hacc : (0x00000000#32 : BitVec 32) = FKind.add.neutral .f32 hφ) (r : Fin 200) (f : Fin 64) :
    multiReduction (F := Ideal) .add [1] S200x64 (shapeCast S200x128x64 x0 hc) 0x00000000#32 hr hφ hacc (ix2 r f)
      = ∑ t : Fin 128, x0 (ix3 r t f) := by
  refine (Ideal.multiReduction_add_single _ _ hr hφ hacc (ix2 r f)).trans ?_
  refine Finset.sum_congr rfl fun t _ => ?_
  rw [shapeCast_self]
  exact congrArg x0 (funext fun a => Fin.ext (by match a with | ⟨0, _⟩ => rfl | ⟨1, _⟩ => rfl | ⟨2, _⟩ => rfl))

/-- THE STORED ENTRY. -/
theorem pay_apply (x0 : Vec Ideal S200x128x64 .f32) (x1 : Vec Ideal S64x256 .f32) (x2 : Vec Ideal S1x256 .f32)
    (r : Fin 200) (d : Fin 256) :
    k0_pay1 (F := Ideal) x0 x1 x2 (ix2 r d)
      = (∑ f : Fin 64, ((∑ t : Fin 128, x0 (ix3 r t f)) * Ideal.ofBits .f32 0x3C000000#32) * x1 (ix2 f d))
        + x2 (ix2 (0 : Fin 1) d) := by
  unfold k0_pay1
  refine congrArg₂ (fun a b : EReal => a + b) ?_ ?_
  · refine (Ideal.matmul_constant_zero_apply dot_S200x64_S64x256_S200x256_1_0_0_1_n_n none _ _ (ix2 r d)).trans ?_
    refine (Cert.LibPlainDot.sum_plain dot_S200x64_S64x256_S200x256_1_0_0_1_n_n rfl rfl dot_l0 dot_l1 dot_r0 dot_r1 _ _ r d).trans ?_
    refine Finset.sum_congr rfl fun f _ => ?_
    refine congrArg₂ (fun a b : EReal => a * b) ?_ rfl
    refine congrArg₂ (fun a b : EReal => a * b) ?_ rfl
    exact pooled_apply x0 _ _ _ _ r f
  · refine (broadcastTo_1b_ab_apply _ _ r d).trans ?_
    rw [shapeCast_self]

/-- The second pallas call's body stores the same function of its loads. -/
theorem pay1_eq (x0 : Vec Ideal S200x128x64 .f32) (x1 : Vec Ideal S64x256 .f32) (x2 : Vec Ideal S1x256 .f32) :
    k1_pay1 (F := Ideal) x0 x1 x2 = k0_pay1 (F := Ideal) x0 x1 x2 := rfl

end Cert.KernelIdeal.Row

end
-- ==== Proof.EncodeSpec.lean ====
/-
  The encoder as ONE function of whole arrays, index by index.

  For M rows X[m, t, f] (128 time steps, 64 features), a projection W[f, d] (64 by 256) and a bias row B[0, d],
      enc X W B [m, d]  =  ( sum over f of ( (sum over t of X[m, t, f]) * 2^-7 ) * W[f, d] )  +  B[0, d].
  A grid point's stored block is this function of the point's blocks; the whole output array is this function of
  the whole argument arrays.  An entry depends on row m of X, column d of W and column d of B only, which is the
  congruence used to pass from a block to the array.
-/
import Idealize.ShloMosaic.PureOps.Ideal
import Idealize.ShloMosaic.Lib.ValueIdx

noncomputable section

namespace Cert.Encode

open Idealize.ShloMosaic Idealize.ShloMosaic.ValueIdx

/-- The entry at row r, column d. -/
def encAt {M : Nat} (X : (⟨3, ![M, 128, 64]⟩ : Shape).Idx → EReal) (W : (⟨2, ![64, 256]⟩ : Shape).Idx → EReal)
    (B : (⟨2, ![1, 256]⟩ : Shape).Idx → EReal) (r : Fin M) (d : Fin 256) : EReal :=
  (∑ f : Fin 64, ((∑ t : Fin 128, X (ix3 r t f)) * Ideal.ofBits .f32 0x3C000000#32) * W (ix2 f d))
    + B (ix2 (0 : Fin 1) d)

/-- The whole M by 256 array. -/
def enc (M : Nat) (X : (⟨3, ![M, 128, 64]⟩ : Shape).Idx → EReal) (W : (⟨2, ![64, 256]⟩ : Shape).Idx → EReal)
    (B : (⟨2, ![1, 256]⟩ : Shape).Idx → EReal) : (⟨2, ![M, 256]⟩ : Shape).Idx → EReal :=
  fun i => encAt X W B ⟨(i 0).val, (i 0).isLt⟩ ⟨(i 1).val, (i 1).isLt⟩

/-- An entry reads one row of X, one column of W and one column of B: arrays that agree there give the same entry. -/
theorem encAt_congr {M M' : Nat} (X : (⟨3, ![M, 128, 64]⟩ : Shape).Idx → EReal) (X' : (⟨3, ![M', 128, 64]⟩ : Shape).Idx → EReal)
    (W W' : (⟨2, ![64, 256]⟩ : Shape).Idx → EReal) (B B' : (⟨2, ![1, 256]⟩ : Shape).Idx → EReal)
    (r : Fin M) (r' : Fin M') (d d' : Fin 256)
    (hX : ∀ (t : Fin 128) (f : Fin 64), X (ix3 r t f) = X' (ix3 r' t f))
    (hW : ∀ f : Fin 64, W (ix2 f d) = W' (ix2 f d'))
    (hB : B (ix2 (0 : Fin 1) d) = B' (ix2 (0 : Fin 1) d')) :
    encAt X W B r d = encAt X' W' B' r' d' := by
  unfold encAt
  simp only [hX, hW, hB]

end Cert.Encode

end
-- ==== Proof.KernelArrays.lean ====
/-
  From blocks to arrays: what each pallas call leaves in its output array.

  A grid point t stages rows 200 t ... 200 t + 199 of the input rows, the whole projection and the whole bias row,
  runs the body, and writes its 200 by 256 block back at rows 200 t ... 200 t + 199 of the output.  The body's block
  is the encoder (Cert.Encode.enc) of the staged blocks, an entry of the encoder reads only its own row of the input,
  so the block written back is the matching block of the encoder of the WHOLE arrays; the row blocks tile the output
  (8 x 200 = 1600 rows for the support call, 12 x 200 = 2400 for the query call), so the array ends as that encoder
  everywhere.  All of it is stated at the arrays as the region finds them.
-/
import proofs.«155804_j29351806501536_2_alg».proof.Proof.Gen.KernelIdeal.Frame
import proofs.«155804_j29351806501536_2_alg».proof.Proof.KernelRow
import proofs.«155804_j29351806501536_2_alg».proof.Proof.EncodeSpec
import Idealize.ShloMosaic.Lib.Pipeline.Value

noncomputable section

namespace Cert.KernelIdeal.Arrays

open Cert.KernelIdeal Cert.KernelIdeal.Gen Cert.KernelIdeal.Row Cert.Encode
open Idealize.ShloMosaic Idealize.ShloMosaic.TcCoe Idealize.ShloMosaic.ValueIdx Idealize.SL.Sem
open Idealize.ShloMosaic.Pipeline (Dat)

theorem hz2 : (![0, 0] : Fin 2 → Nat) = fun _ => 0 := funext fun a => by fin_cases a <;> rfl
theorem hz3 : (![0, 0, 0] : Fin 3 → Nat) = fun _ => 0 := funext fun a => by fin_cases a <;> rfl

/-- The body's stored block at any index of the block is the encoder's entry of the loaded blocks. -/
theorem pay_at (x0 : Vec Ideal S200x128x64 .f32) (x1 : Vec Ideal S64x256 .f32) (x2 : Vec Ideal S1x256 .f32) (y : S200x256.Idx) :
    k0_pay1 (F := Ideal) x0 x1 x2 y = encAt x0 x1 x2 ⟨(y 0).val, (y 0).isLt⟩ ⟨(y 1).val, (y 1).isLt⟩ := by
  have hy : y = ix2 (⟨(y 0).val, (y 0).isLt⟩ : Fin 200) (⟨(y 1).val, (y 1).isLt⟩ : Fin 256) :=
    funext fun a => by match a with | ⟨0, _⟩ => rfl | ⟨1, _⟩ => rfl
  rw [hy]
  exact pay_apply x0 x1 x2 _ _

/-! # Pallas call 0: the 1600 by 256 output array after its 8 grid points -/

section Region0

variable (V : (c : Dev nD) → (b : Ref sig .tc) → Buf (Elt Ideal) ((c : Thread nD τ).loc b))

/-- The printed index maps over the grid: the row block of the input rows and of the output moves with the point, every
    other block index is zero. -/
theorem idx_facts0 : ∀ t : Fin cfg0.N,
    win0_0.index t (0 : Fin 3) = win0_3.index t (0 : Fin 2) ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 7 :=
  (by decide +kernel : ∀ t : Fin grid0.N, _)

/-- Every row block is some point's. -/
theorem idx_onto0 : ∀ q : Fin 8, ∃ t : Fin cfg0.N, win0_3.index t = ![q.val, 0] :=
  (by decide +kernel : ∀ q : Fin 8, ∃ t : Fin grid0.N, win0_3.index t = ![q.val, 0])

/-- WHAT POINT t WRITES BACK is block t of the encoder applied to the whole arrays the region finds: the rows
    200 t ... 200 t + 199 of the input, the whole projection, the whole bias row. -/
theorem flushed0_eq (c : Dev nD) (t : Fin cfg0.N) :
    (dat0 V c).flushed 3 t
      = ((cfg0.win 3).blk t).view.read (Elt Ideal) (enc 1600 (V c main_v1) (V c main_arg3) (V c main_v0)) := by
  show (cfg0.win 3).cut (grid0.coords t) ((dat0 V c).after 3 t) = _
  rw [after0_3]
  unfold out0_3
  rw [View.canon_unit_zero hz2]
  simp only [View.ld_unit_zero (S := S200x128x64) hz3, View.ld_unit_zero (S := S64x256) hz2, View.ld_unit_zero (S := S1x256) hz2]
  obtain ⟨e0, e1, e2, e3, e4, e5, e6, e7, e8⟩ := idx_facts0 t
  funext j
  show k0_pay1 (F := Ideal) (iblk0 V c 0 t) (iblk0 V c 1 t) (iblk0 V c 2 t) j
    = enc 1600 (V c main_v1) (V c main_arg3) (V c main_v0) (((cfg0.win 3).blk t).view.emb j)
  refine (pay_at (iblk0 V c 0 t) (iblk0 V c 1 t) (iblk0 V c 2 t) j).trans ?_
  unfold enc
  refine encAt_congr _ _ _ _ _ _ _ _ _ _ (fun tt f => ?_) (fun f => ?_) ?_
  · show V c main_v1 (((cfg0.win 0).blk t).view.emb (ix3 ⟨(j 0).val, (j 0).isLt⟩ tt f)) = V c main_v1 _
    refine congrArg (V c main_v1) (funext fun a => Fin.ext ?_)
    match a with
    | ⟨0, _⟩ =>
      show win0_0.index t (0 : Fin 3) * 200 + 1 * (j 0).val = win0_3.index t (0 : Fin 2) * 200 + 1 * (j 0).val
      omega
    | ⟨1, _⟩ => show win0_0.index t (1 : Fin 3) * 128 + 1 * tt.val = tt.val; omega
    | ⟨2, _⟩ => show win0_0.index t (2 : Fin 3) * 64 + 1 * f.val = f.val; omega
  · show V c main_arg3 (((cfg0.win 1).blk t).view.emb (ix2 f ⟨(j 1).val, (j 1).isLt⟩)) = V c main_arg3 _
    refine congrArg (V c main_arg3) (funext fun a => Fin.ext ?_)
    match a with
    | ⟨0, _⟩ => show win0_1.index t (0 : Fin 2) * 64 + 1 * f.val = f.val; omega
    | ⟨1, _⟩ =>
      show win0_1.index t (1 : Fin 2) * 256 + 1 * (j 1).val = win0_3.index t (1 : Fin 2) * 256 + 1 * (j 1).val
      omega
  · show V c main_v0 (((cfg0.win 2).blk t).view.emb (ix2 (0 : Fin 1) ⟨(j 1).val, (j 1).isLt⟩)) = V c main_v0 _
    refine congrArg (V c main_v0) (funext fun a => Fin.ext ?_)
    match a with
    | ⟨0, _⟩ => show win0_2.index t (0 : Fin 2) * 1 + 1 * 0 = 0; omega
    | ⟨1, _⟩ =>
      show win0_2.index t (1 : Fin 2) * 256 + 1 * (j 1).val = win0_3.index t (1 : Fin 2) * 256 + 1 * (j 1).val
      omega

/-- An index of the output array is in point t's block iff each coordinate is in the block's range on its axis. -/
theorem mem_blk0 (t : Fin cfg0.N) (i : S1600x256.Idx) :
    i ∈ ((cfg0.win 3).blk t).view.set
      ↔ ∀ a : Fin 2, win0_3.index t a * S200x256.size a ≤ (i a).val ∧ (i a).val < win0_3.index t a * S200x256.size a + S200x256.size a := by
  show i ∈ ((View.whole main_v3).slice (win0_3.rect t)).set ↔ _
  rw [View.set_slice_whole, Rect.mem_set_unit]
  exact Iff.rfl

/-- The row blocks tile the output: row m lies in the block of point m / 200. -/
theorem cover0 (i : S1600x256.Idx) : ∃ t : Fin cfg0.N, (cfg0.win 3).flush t = true ∧ i ∈ ((cfg0.win 3).blk t).view.set := by
  have hi0 : (i 0).val < 1600 := (i 0).isLt
  have hi1 : (i 1).val < 256 := (i 1).isLt
  obtain ⟨t, ht⟩ := idx_onto0 ⟨(i 0).val / 200, by omega⟩
  have q0 : win0_3.index t (0 : Fin 2) = (i 0).val / 200 := congrFun ht 0
  have q1 : win0_3.index t (1 : Fin 2) = 0 := congrFun ht 1
  refine ⟨t, flush0_3 t, ?_⟩
  rw [mem_blk0]
  intro a
  match a with
  | ⟨0, _⟩ =>
    show win0_3.index t (0 : Fin 2) * 200 ≤ (i 0).val ∧ (i 0).val < win0_3.index t (0 : Fin 2) * 200 + 200
    omega
  | ⟨1, _⟩ =>
    show win0_3.index t (1 : Fin 2) * 256 ≤ (i 1).val ∧ (i 1).val < win0_3.index t (1 : Fin 2) * 256 + 256
    omega

/-- THE OUTPUT ARRAY after the pallas call: the encoder of the arrays the region finds. -/
theorem final0 (c : Dev nD) :
    (dat0 V c).arrAt 3 cfg0.N = enc 1600 (V c main_v1) (V c main_arg3) (V c main_v0) :=
  (dat0 V c).arrAt_eq_of_cover 3 (enc 1600 (V c main_v1) (V c main_arg3) (V c main_v0))
    (fun t _ => flushed0_eq V c t) (fun i => cover0 i)

end Region0

/-! # Pallas call 1: the 2400 by 256 output array after its 12 grid points -/

section Region1

variable (V : (c : Dev nD) → (b : Ref sig .tc) → Buf (Elt Ideal) ((c : Thread nD τ).loc b))

/-- The printed index maps over the grid: the row block of the input rows and of the output moves with the point, every
    other block index is zero. -/
theorem idx_facts1 : ∀ t : Fin cfg1.N,
    win1_0.index t (0 : Fin 3) = win1_3.index t (0 : Fin 2) ∧ win1_0.index t (1 : Fin 3) = 0 ∧ win1_0.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (1 : Fin 2) = 0 ∧ win1_3.index t (0 : Fin 2) ≤ 11 :=
  (by decide +kernel : ∀ t : Fin grid1.N, _)

/-- Every row block is some point's. -/
theorem idx_onto1 : ∀ q : Fin 12, ∃ t : Fin cfg1.N, win1_3.index t = ![q.val, 0] :=
  (by decide +kernel : ∀ q : Fin 12, ∃ t : Fin grid1.N, win1_3.index t = ![q.val, 0])

/-- WHAT POINT t WRITES BACK is block t of the encoder applied to the whole arrays the region finds: the rows
    200 t ... 200 t + 199 of the input, the whole projection, the whole bias row. -/
theorem flushed1_eq (c : Dev nD) (t : Fin cfg1.N) :
    (dat1 V c).flushed 3 t
      = ((cfg1.win 3).blk t).view.read (Elt Ideal) (enc 2400 (V c main_v2) (V c main_arg3) (V c main_v0)) := by
  show (cfg1.win 3).cut (grid1.coords t) ((dat1 V c).after 3 t) = _
  rw [after1_3]
  unfold out1_3
  rw [View.canon_unit_zero hz2]
  simp only [View.ld_unit_zero (S := S200x128x64) hz3, View.ld_unit_zero (S := S64x256) hz2, View.ld_unit_zero (S := S1x256) hz2]
  obtain ⟨e0, e1, e2, e3, e4, e5, e6, e7, e8⟩ := idx_facts1 t
  funext j
  show k0_pay1 (F := Ideal) (iblk1 V c 0 t) (iblk1 V c 1 t) (iblk1 V c 2 t) j
    = enc 2400 (V c main_v2) (V c main_arg3) (V c main_v0) (((cfg1.win 3).blk t).view.emb j)
  refine (pay_at (iblk1 V c 0 t) (iblk1 V c 1 t) (iblk1 V c 2 t) j).trans ?_
  unfold enc
  refine encAt_congr _ _ _ _ _ _ _ _ _ _ (fun tt f => ?_) (fun f => ?_) ?_
  · show V c main_v2 (((cfg1.win 0).blk t).view.emb (ix3 ⟨(j 0).val, (j 0).isLt⟩ tt f)) = V c main_v2 _
    refine congrArg (V c main_v2) (funext fun a => Fin.ext ?_)
    match a with
    | ⟨0, _⟩ =>
      show win1_0.index t (0 : Fin 3) * 200 + 1 * (j 0).val = win1_3.index t (0 : Fin 2) * 200 + 1 * (j 0).val
      omega
    | ⟨1, _⟩ => show win1_0.index t (1 : Fin 3) * 128 + 1 * tt.val = tt.val; omega
    | ⟨2, _⟩ => show win1_0.index t (2 : Fin 3) * 64 + 1 * f.val = f.val; omega
  · show V c main_arg3 (((cfg1.win 1).blk t).view.emb (ix2 f ⟨(j 1).val, (j 1).isLt⟩)) = V c main_arg3 _
    refine congrArg (V c main_arg3) (funext fun a => Fin.ext ?_)
    match a with
    | ⟨0, _⟩ => show win1_1.index t (0 : Fin 2) * 64 + 1 * f.val = f.val; omega
    | ⟨1, _⟩ =>
      show win1_1.index t (1 : Fin 2) * 256 + 1 * (j 1).val = win1_3.index t (1 : Fin 2) * 256 + 1 * (j 1).val
      omega
  · show V c main_v0 (((cfg1.win 2).blk t).view.emb (ix2 (0 : Fin 1) ⟨(j 1).val, (j 1).isLt⟩)) = V c main_v0 _
    refine congrArg (V c main_v0) (funext fun a => Fin.ext ?_)
    match a with
    | ⟨0, _⟩ => show win1_2.index t (0 : Fin 2) * 1 + 1 * 0 = 0; omega
    | ⟨1, _⟩ =>
      show win1_2.index t (1 : Fin 2) * 256 + 1 * (j 1).val = win1_3.index t (1 : Fin 2) * 256 + 1 * (j 1).val
      omega

/-- An index of the output array is in point t's block iff each coordinate is in the block's range on its axis. -/
theorem mem_blk1 (t : Fin cfg1.N) (i : S2400x256.Idx) :
    i ∈ ((cfg1.win 3).blk t).view.set
      ↔ ∀ a : Fin 2, win1_3.index t a * S200x256.size a ≤ (i a).val ∧ (i a).val < win1_3.index t a * S200x256.size a + S200x256.size a := by
  show i ∈ ((View.whole main_v5).slice (win1_3.rect t)).set ↔ _
  rw [View.set_slice_whole, Rect.mem_set_unit]
  exact Iff.rfl

/-- The row blocks tile the output: row m lies in the block of point m / 200. -/
theorem cover1 (i : S2400x256.Idx) : ∃ t : Fin cfg1.N, (cfg1.win 3).flush t = true ∧ i ∈ ((cfg1.win 3).blk t).view.set := by
  have hi0 : (i 0).val < 2400 := (i 0).isLt
  have hi1 : (i 1).val < 256 := (i 1).isLt
  obtain ⟨t, ht⟩ := idx_onto1 ⟨(i 0).val / 200, by omega⟩
  have q0 : win1_3.index t (0 : Fin 2) = (i 0).val / 200 := congrFun ht 0
  have q1 : win1_3.index t (1 : Fin 2) = 0 := congrFun ht 1
  refine ⟨t, flush1_3 t, ?_⟩
  rw [mem_blk1]
  intro a
  match a with
  | ⟨0, _⟩ =>
    show win1_3.index t (0 : Fin 2) * 200 ≤ (i 0).val ∧ (i 0).val < win1_3.index t (0 : Fin 2) * 200 + 200
    omega
  | ⟨1, _⟩ =>
    show win1_3.index t (1 : Fin 2) * 256 ≤ (i 1).val ∧ (i 1).val < win1_3.index t (1 : Fin 2) * 256 + 256
    omega

/-- THE OUTPUT ARRAY after the pallas call: the encoder of the arrays the region finds. -/
theorem final1 (c : Dev nD) :
    (dat1 V c).arrAt 3 cfg1.N = enc 2400 (V c main_v2) (V c main_arg3) (V c main_v0) :=
  (dat1 V c).arrAt_eq_of_cover 3 (enc 2400 (V c main_v2) (V c main_arg3) (V c main_v0))
    (fun t _ => flushed1_eq V c t) (fun i => cover1 i)

end Region1

end Cert.KernelIdeal.Arrays

end
-- ==== Proof.KernelRun.lean ====
/-
  The kernel's program runs, and its result buffer ends at the last boundary's contents.

  The program is five segments: three reshapes, the support pallas call, one reshape, the query pallas call, and the
  host operations that follow.  The contents of every buffer at each boundary are a fold from the launch memory
  (Gen.W0 ... Gen.W5).  Every weakly fair execution terminates without fault in a state where every unscoped buffer
  holds its value in the last fold; read at the result buffer and at the five arguments this is the statement below.
  The arguments are as launched; the result is Gen.W5 at the result buffer, which the value modules evaluate.
-/
import proofs.«155804_j29351806501536_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- THE RUN WITH ITS RESULT NAMED: termination without fault, the result buffer at the last boundary's contents, the
    arguments as launched. -/
theorem run_result : θ_run defs (onTc (τ := τ) (main (F := F))) ⟨m, fun _ => 0, ρ⟩ (fun r => ∀ c : Dev nD,
      r.2.mem ((c.tc : Thread nD τ).loc main_v28) = W5 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v28 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.KernelIdeal.RunValue

end
-- ==== Proof.TailSpec.lean ====
/-
  What both programs do AFTER the two encodings, as one function.

  Given the labels y (32 episodes by 50 support items), the encoded support set sz (32 by 50 by 256) and the encoded
  queries qz (32 by 75 by 256):  the one-hot matrix of the labels against the 5 classes, the class counts, the class
  prototypes (one-hot-weighted sums of sz divided by the counts), the squared differences between every query and
  every prototype summed over the 256 features, the square root, the negation, and the final 2400 by 5 layout.
  The kernel's program and the reference apply exactly these operations, in this order, to their own encodings;
  the certificate only ever uses that this is ONE function of (y, sz, qz), never what it computes.
-/
import proofs.«155804_j29351806501536_2_alg».proof.Proof.Gen.KernelIdeal
import Idealize.ShloMosaic.PureOps.Ideal

noncomputable section

namespace Cert.KernelIdeal.Tail

open Idealize.ShloMosaic Cert.KernelIdeal Cert.KernelIdeal.Gen

/-- Negative Euclidean distances from each query to each class prototype, from labels and the two encodings. -/
def tail (y : (⟨S32x50, .i32⟩ : BufTy).Contents (Elt Ideal)) (sz : (⟨S32x50x256, .f32⟩ : BufTy).Contents (Elt Ideal))
    (qz : (⟨S32x75x256, .f32⟩ : BufTy).Contents (Elt Ideal)) : (⟨S2400x5, .f32⟩ : BufTy).Contents (Elt Ideal) :=
  let v7 : (⟨S32x50x1, .i32⟩ : BufTy).Contents (Elt Ideal) := broadcastInDim S32x50x1 ![0, 1] bcast_S32x50_S32x50x1_0_1 y
  let v8 : (⟨S5, .i32⟩ : BufTy).Contents (Elt Ideal) := iotaInDim S5 32 0
  let v9 : (⟨S1x1x5, .i32⟩ : BufTy).Contents (Elt Ideal) := broadcastInDim S1x1x5 ![2] bcast_S5_S1x1x5_2 v8
  let v10 : (⟨S32x50x5, .i32⟩ : BufTy).Contents (Elt Ideal) := broadcastInDim S32x50x5 ![0, 1, 2] bcast_S32x50x1_S32x50x5_0_1_2 v7
  let v11 : (⟨S32x50x5, .i32⟩ : BufTy).Contents (Elt Ideal) := broadcastInDim S32x50x5 ![0, 1, 2] bcast_S1x1x5_S32x50x5_0_1_2 v9
  let v12 : (⟨S32x50x5, .i1⟩ : BufTy).Contents (Elt Ideal) := cmpi .eq v10 v11
  let v13 : (⟨S32x50x5, .f32⟩ : BufTy).Contents (Elt Ideal) := uitofp (F := Ideal) .f32 v12
  let cst : (⟨S_, .f32⟩ : BufTy).Contents (Elt Ideal) := constant (F := Ideal) S_ .f32 0x00000000#32
  let v14 : (⟨S32x5, .f32⟩ : BufTy).Contents (Elt Ideal) := Host.reduceAdd (F := Ideal) (φ := .f32) v13 cst reducesTo_S32x50x5_S32x5_d1 h_S_
  let v15 : (⟨S32x5x256, .f32⟩ : BufTy).Contents (Elt Ideal) := Host.dotGeneral (F := Ideal) (φ₁ := .f32) (φ₂ := .f32) dot_S32x50x5_S32x50x256_S32x5x256_1_1_2_2_0_0 none v13 sz
  let v16 : (⟨S32x5x1, .f32⟩ : BufTy).Contents (Elt Ideal) := broadcastInDim S32x5x1 ![0, 1] bcast_S32x5_S32x5x1_0_1 v14
  let v17 : (⟨S32x5x256, .f32⟩ : BufTy).Contents (Elt Ideal) := broadcastInDim S32x5x256 ![0, 1, 2] bcast_S32x5x1_S32x5x256_0_1_2 v16
  let v18 : (⟨S32x5x256, .f32⟩ : BufTy).Contents (Elt Ideal) := Host.divf (F := Ideal) (φ := .f32) v15 v17
  let v19 : (⟨S32x75x1x256, .f32⟩ : BufTy).Contents (Elt Ideal) := broadcastInDim S32x75x1x256 ![0, 1, 3] bcast_S32x75x256_S32x75x1x256_0_1_3 qz
  let v20 : (⟨S32x1x5x256, .f32⟩ : BufTy).Contents (Elt Ideal) := broadcastInDim S32x1x5x256 ![0, 2, 3] bcast_S32x5x256_S32x1x5x256_0_2_3 v18
  let v21 : (⟨S32x75x5x256, .f32⟩ : BufTy).Contents (Elt Ideal) := broadcastInDim S32x75x5x256 ![0, 1, 2, 3] bcast_S32x75x1x256_S32x75x5x256_0_1_2_3 v19
  let v22 : (⟨S32x75x5x256, .f32⟩ : BufTy).Contents (Elt Ideal) := broadcastInDim S32x75x5x256 ![0, 1, 2, 3] bcast_S32x1x5x256_S32x75x5x256_0_1_2_3 v20
  let v23 : (⟨S32x75x5x256, .f32⟩ : BufTy).Contents (Elt Ideal) := subf (F := Ideal) (φ := .f32) v21 v22
  let v24 : (⟨S32x75x5x256, .f32⟩ : BufTy).Contents (Elt Ideal) := mulf (F := Ideal) (φ := .f32) v23 v23
  let cst_0 : (⟨S_, .f32⟩ : BufTy).Contents (Elt Ideal) := constant (F := Ideal) S_ .f32 0x00000000#32
  let v25 : (⟨S32x75x5, .f32⟩ : BufTy).Contents (Elt Ideal) := Host.reduceAdd (F := Ideal) (φ := .f32) v24 cst_0 reducesTo_S32x75x5x256_S32x75x5_d3 h_S_
  let v26 : (⟨S32x75x5, .f32⟩ : BufTy).Contents (Elt Ideal) := Host.sqrt (F := Ideal) (φ := .f32) v25
  let v27 : (⟨S32x75x5, .f32⟩ : BufTy).Contents (Elt Ideal) := Host.negf (F := Ideal) (φ := .f32) v26
  shapeCast S2400x5 v27 shapeCasts_S32x75x5_S2400x5

end Cert.KernelIdeal.Tail

end
-- ==== Proof.KernelValue.lean ====
/-
  The kernel's result as a function of its arguments.

  Walking the boundary contents backwards from the result buffer:
    * the host operations after the second pallas call are the shared tail of the labels, the reshaped support
      encodings and the reshaped query encodings;
    * the query encodings are what the second pallas call leaves in its output array: the encoder of the reshaped
      queries, the projection and the bias row, all untouched since the first three reshapes (the first pallas call
      only stages the projection and the bias row and writes neither back);
    * the support encodings are the reshape of what the first pallas call leaves: the encoder of the reshaped support set.
  Reshapes only re-index, so the result is the tail of encoders of re-indexed arguments.
-/
import proofs.«155804_j29351806501536_2_alg».proof.Proof.Gen.KernelIdeal.Frame
import proofs.«155804_j29351806501536_2_alg».proof.Proof.KernelArrays
import proofs.«155804_j29351806501536_2_alg».proof.Proof.KernelRun
import proofs.«155804_j29351806501536_2_alg».proof.Proof.TailSpec
import Idealize.ShloMosaic.Lib.StableHlo.Run

set_option maxRecDepth 16384

noncomputable section

namespace Cert.KernelIdeal.ValueRead

open Cert.KernelIdeal Cert.KernelIdeal.Gen Cert.KernelIdeal.Arrays Cert.KernelIdeal.Tail Cert.Encode
open Idealize.ShloMosaic Idealize.ShloMosaic.TcCoe Idealize.ShloMosaic.StableHlo Idealize.SL.Sem
open Idealize.ShloMosaic.Pipeline (Dat)

variable (m : (ℓ : Loc nD τ sig) → Buf (Elt Ideal) ℓ) (ρ : Dev nD → PrngReg)

/-! ## After the first three reshapes (the first pallas call's entry) -/

theorem W1_v0 (c : Dev nD) : W1 m ρ c (Proc.devRef .tc main_v0)
    = shapeCast S1x256 (m ((c : Thread nD τ).loc main_arg4)) shapeCasts_S256_S1x256 := by
  show StableHlo.after hostOps0 (W0 m ρ c) (Proc.devRef .tc main_v0) = _
  after_results
  rfl

theorem W1_v1 (c : Dev nD) : W1 m ρ c (Proc.devRef .tc main_v1)
    = shapeCast S1600x128x64 (m ((c : Thread nD τ).loc main_arg0)) shapeCasts_S32x50x128x64_S1600x128x64 := by
  show StableHlo.after hostOps0 (W0 m ρ c) (Proc.devRef .tc main_v1) = _
  after_results
  rfl

theorem W1_v2 (c : Dev nD) : W1 m ρ c (Proc.devRef .tc main_v2)
    = shapeCast S2400x128x64 (m ((c : Thread nD τ).loc main_arg2)) shapeCasts_S32x75x128x64_S2400x128x64 := by
  show StableHlo.after hostOps0 (W0 m ρ c) (Proc.devRef .tc main_v2) = _
  after_results
  rfl

theorem W1_arg3 (c : Dev nD) : W1 m ρ c (Proc.devRef .tc main_arg3) = m ((c : Thread nD τ).loc main_arg3) := by
  show StableHlo.after hostOps0 (W0 m ρ c) (Proc.devRef .tc main_arg3) = _
  after_results

theorem W1_arg1 (c : Dev nD) : W1 m ρ c (Proc.devRef .tc main_arg1) = m ((c : Thread nD τ).loc main_arg1) := by
  show StableHlo.after hostOps0 (W0 m ρ c) (Proc.devRef .tc main_arg1) = _
  after_results

/-! ## After the first pallas call and the reshape of its output (the second pallas call's entry) -/

/-- The first pallas call's output array: the encoder of the reshaped support set. -/
theorem W2_v3 (c : Dev nD) : W2 m ρ c (Proc.devRef .tc main_v3)
    = enc 1600 (shapeCast S1600x128x64 (m ((c : Thread nD τ).loc main_arg0)) shapeCasts_S32x50x128x64_S1600x128x64)
        (m ((c : Thread nD τ).loc main_arg3))
        (shapeCast S1x256 (m ((c : Thread nD τ).loc main_arg4)) shapeCasts_S256_S1x256) := by
  refine (W2_arr m ρ c 3).trans ((final0 (V1 m ρ) c).trans ?_)
  show enc 1600 (W1 m ρ c (Proc.devRef .tc main_v1)) (W1 m ρ c (Proc.devRef .tc main_arg3)) (W1 m ρ c (Proc.devRef .tc main_v0)) = _
  rw [W1_v1, W1_arg3, W1_v0]

theorem W3_v4 (c : Dev nD) : W3 m ρ c (Proc.devRef .tc main_v4)
    = shapeCast S32x50x256 (W2 m ρ c (Proc.devRef .tc main_v3)) shapeCasts_S1600x256_S32x50x256 := by
  show StableHlo.after hostOps1 (W2 m ρ c) (Proc.devRef .tc main_v4) = _
  after_results
  rfl

theorem W3_v2 (c : Dev nD) : W3 m ρ c (Proc.devRef .tc main_v2) = W1 m ρ c (Proc.devRef .tc main_v2) := by
  show StableHlo.after hostOps1 (W2 m ρ c) (Proc.devRef .tc main_v2) = _
  after_results
  exact W2_of_ne m ρ c main_v2 (by decide)

theorem W3_arg1 (c : Dev nD) : W3 m ρ c (Proc.devRef .tc main_arg1) = W1 m ρ c (Proc.devRef .tc main_arg1) := by
  show StableHlo.after hostOps1 (W2 m ρ c) (Proc.devRef .tc main_arg1) = _
  after_results
  exact W2_of_ne m ρ c main_arg1 (by decide)

/-- The projection is staged by the first pallas call and never written back. -/
theorem W3_arg3 (c : Dev nD) : W3 m ρ c (Proc.devRef .tc main_arg3) = W1 m ρ c (Proc.devRef .tc main_arg3) := by
  show StableHlo.after hostOps1 (W2 m ρ c) (Proc.devRef .tc main_arg3) = _
  after_results
  exact (W2_arr m ρ c 1).trans (((dat0 (V1 m ρ) c).arrAt_in 1 rfl _).trans (A_eq0 (V1 m ρ) c 1))

/-- So is the bias row. -/
theorem W3_v0 (c : Dev nD) : W3 m ρ c (Proc.devRef .tc main_v0) = W1 m ρ c (Proc.devRef .tc main_v0) := by
  show StableHlo.after hostOps1 (W2 m ρ c) (Proc.devRef .tc main_v0) = _
  after_results
  exact (W2_arr m ρ c 2).trans (((dat0 (V1 m ρ) c).arrAt_in 2 rfl _).trans (A_eq0 (V1 m ρ) c 2))

/-! ## After the second pallas call -/

/-- The second pallas call's output array: the encoder of the reshaped queries. -/
theorem W4_v5 (c : Dev nD) : W4 m ρ c (Proc.devRef .tc main_v5)
    = enc 2400 (shapeCast S2400x128x64 (m ((c : Thread nD τ).loc main_arg2)) shapeCasts_S32x75x128x64_S2400x128x64)
        (m ((c : Thread nD τ).loc main_arg3))
        (shapeCast S1x256 (m ((c : Thread nD τ).loc main_arg4)) shapeCasts_S256_S1x256) := by
  refine (W4_arr m ρ c 3).trans ((final1 (V3 m ρ) c).trans ?_)
  show enc 2400 (W3 m ρ c (Proc.devRef .tc main_v2)) (W3 m ρ c (Proc.devRef .tc main_arg3)) (W3 m ρ c (Proc.devRef .tc main_v0)) = _
  rw [W3_v2, W3_arg3, W3_v0, W1_v2, W1_arg3, W1_v0]

theorem W4_v4 (c : Dev nD) : W4 m ρ c (Proc.devRef .tc main_v4) = W3 m ρ c (Proc.devRef .tc main_v4) :=
  W4_of_ne m ρ c main_v4 (by decide)

theorem W4_arg1 (c : Dev nD) : W4 m ρ c (Proc.devRef .tc main_arg1) = W3 m ρ c (Proc.devRef .tc main_arg1) :=
  W4_of_ne m ρ c main_arg1 (by decide)

/-! ## The host operations after the second pallas call are the shared tail -/

theorem W5_v28 (c : Dev nD) : W5 m ρ c (Proc.devRef .tc main_v28)
    = tail (W4 m ρ c (Proc.devRef .tc main_arg1)) (W4 m ρ c (Proc.devRef .tc main_v4))
        (shapeCast S32x75x256 (W4 m ρ c (Proc.devRef .tc main_v5)) shapeCasts_S2400x256_S32x75x256) := by
  show StableHlo.after hostOps2 (W4 m ρ c) (Proc.devRef .tc main_v28) = _
  after_results_simp
  rfl

/-! ## The result -/

/-- The kernel's result array as a function of the launch memory. -/
def kernelOut (c : Dev nD) : (⟨S2400x5, .f32⟩ : BufTy).Contents (Elt Ideal) :=
  tail (m ((c : Thread nD τ).loc main_arg1))
    (shapeCast S32x50x256
      (enc 1600 (shapeCast S1600x128x64 (m ((c : Thread nD τ).loc main_arg0)) shapeCasts_S32x50x128x64_S1600x128x64)
        (m ((c : Thread nD τ).loc main_arg3))
        (shapeCast S1x256 (m ((c : Thread nD τ).loc main_arg4)) shapeCasts_S256_S1x256))
      shapeCasts_S1600x256_S32x50x256)
    (shapeCast S32x75x256
      (enc 2400 (shapeCast S2400x128x64 (m ((c : Thread nD τ).loc main_arg2)) shapeCasts_S32x75x128x64_S2400x128x64)
        (m ((c : Thread nD τ).loc main_arg3))
        (shapeCast S1x256 (m ((c : Thread nD τ).loc main_arg4)) shapeCasts_S256_S1x256))
      shapeCasts_S2400x256_S32x75x256)

theorem W5_result (c : Dev nD) : W5 m ρ c (Proc.devRef .tc main_v28) = kernelOut m c := by
  rw [W5_v28, W4_arg1, W3_arg1, W1_arg1, W4_v4, W3_v4, W2_v3, W4_v5]
  rfl

/-- THE KERNEL'S RUN: every weakly fair execution terminates without fault, the result array at the tail of the two
    encoders of the re-indexed arguments, the arguments as launched. -/
theorem run : θ_run defs (onTc (τ := τ) (main (F := Ideal))) ⟨m, fun _ => 0, ρ⟩ (fun r => ∀ c : Dev nD,
      r.2.mem ((c.tc : Thread nD τ).loc main_v28) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(h c).1.trans (W5_result m ρ c), (h c).2⟩)
    (Cert.KernelIdeal.RunValue.run_result (F := Ideal) m ρ)

end Cert.KernelIdeal.ValueRead

end
-- ==== Proof.EncodeLaw.lean ====
/-
  The one algebraic law of this certificate, on the extended reals, and the two float constants it meets.

  Both encoders pool a row over time and project it: with S f = sum over t of x t f,
    the kernel computes        sum over f of (S f * 2^-7) * w f,
    the reference computes     (sum over f of S f * w f) / 128.
  Division by the real 128 is multiplication by the real 1/128 on every extended real, the factor moves across
  each product by commutativity and associativity, and a NONNEGATIVE FINITE factor distributes over any sum of
  extended reals (a positive real scaling is an order isomorphism and fixes both infinities).  So the two are equal
  for all extended-real arguments: no finiteness of the inputs is used.
-/
import Idealize.ShloMosaic.PureOps.Ideal
import Idealize.ShloMosaic.PureOps.Ideal.Laws

noncomputable section

namespace Cert.Encode

open Idealize.ShloMosaic

/-- The kernel's scale, the pattern of 2^-7, denotes the real 1/128. -/
theorem ofBits_inv128 : Ideal.ofBits .f32 0x3C000000#32 = ((1 / 128 : ℝ) : EReal) := by
  simp [Ideal.ofBits, Ideal.ieee, -EReal.coe_mul]; norm_num

/-- The reference's divisor, the pattern of 2^7, denotes the real 128. -/
theorem ofBits_128 : Ideal.ofBits .f32 0x43000000#32 = ((128 : ℝ) : EReal) := by
  simp [Ideal.ofBits, Ideal.ieee, -EReal.coe_mul]; norm_num

/-- A nonnegative finite factor comes out of a finite sum of extended reals. -/
theorem sum_mul_nonneg {ι : Type} (s : Finset ι) (a : ι → EReal) (c : EReal) (h0 : 0 ≤ c) (ht : c ≠ ⊤) :
    ∑ i ∈ s, a i * c = (∑ i ∈ s, a i) * c := by
  classical
  induction s using Finset.induction_on with
  | empty => simp
  | insert i s hi ih =>
    rw [Finset.sum_insert hi, Finset.sum_insert hi, ih, EReal.right_distrib_of_nonneg_of_ne_top h0 ht]

/-- THE LAW: scaling every pooled entry by 2^-7 before the projection is dividing the projection by 128. -/
theorem scale_then_project {K : Nat} (S w : Fin K → EReal) :
    ∑ f : Fin K, (S f * Ideal.ofBits .f32 0x3C000000#32) * w f
      = Ideal.div (∑ f : Fin K, S f * w f) (Ideal.ofBits .f32 0x43000000#32) := by
  rw [ofBits_inv128, ofBits_128, Ideal.div_coe (by norm_num : (128 : ℝ) ≠ 0),
    ← sum_mul_nonneg _ _ _ (by exact_mod_cast (by norm_num : (0 : ℝ) ≤ 1 / 128)) (EReal.coe_ne_top _)]
  exact Finset.sum_congr rfl fun f _ => mul_right_comm _ _ _

end Cert.Encode

end
-- ==== Proof.RefValue.lean ====
/-
  The reference's side: its two encodings read at an index, their equality with the kernel's encoder, and its result
  as the shared tail.

  The reference encodes a set X[b, n, t, f] as  ( sum over f of (0 + sum over t of X[b, n, t, f]) * W[f, d] ) / 128 + bias[d].
  The kernel's program reshapes the set to rows m = b * N + n, runs the encoder on the rows, and reshapes back; a
  reshape keeps the row-major position, so at (b, n, d) it reads row b * N + n of the encoder.  The two values agree
  by the law of Cert.Encode.scale_then_project, on all extended reals.
-/
import proofs.«155804_j29351806501536_2_alg».proof.Proof.Gen.ReferenceIdeal.Read
import proofs.«155804_j29351806501536_2_alg».proof.Proof.TailSpec
import proofs.«155804_j29351806501536_2_alg».proof.Proof.EncodeSpec
import proofs.«155804_j29351806501536_2_alg».proof.Proof.EncodeLaw
import Idealize.ShloMosaic.Lib.ValueIdx
import Idealize.ShloMosaic.Lib.Pipeline.Value

noncomputable section

namespace Cert.ReferenceIdeal.RefValue

open Cert.ReferenceIdeal Cert.ReferenceIdeal.Gen Cert.ReferenceIdeal.Read
open Idealize.ShloMosaic Idealize.ShloMosaic.ValueIdx Idealize.ShloMosaic.TcCoe Idealize.SL.Sem

/-! ## The support encoding -/

/-- The reference's support encoding at episode b, item n, feature d: the projection of the time sums, divided by 128,
    plus the bias. -/
theorem support_apply (x : (⟨S32x50x128x64, .f32⟩ : BufTy).Contents (Elt Ideal)) (x3 : (⟨S64x256, .f32⟩ : BufTy).Contents (Elt Ideal))
    (x4 : (⟨S256, .f32⟩ : BufTy).Contents (Elt Ideal)) (b : Fin 32) (n : Fin 50) (d : Fin 256) :
    val_main_v6 (F := Ideal) x x3 x4 (ix3 b n d)
      = Ideal.div (∑ f : Fin 64, (∑ t : Fin 128, x (ix4 b n t f)) * x3 (ix2 f d)) (Ideal.ofBits .f32 0x43000000#32)
        + x4 (ix1 d) := by
  have e1 : ∀ (k : Fin 64) (t : Fin 128), idx_main_v0 (lidx_main_v1 (ix3 b n d) k) t = ix4 b n t k := fun k t =>
    funext fun a => Fin.ext (by match a with | ⟨0, _⟩ => rfl | ⟨1, _⟩ => rfl | ⟨2, _⟩ => rfl | ⟨3, _⟩ => rfl)
  have e2 : ∀ k : Fin 64, ridx_main_v1 (ix3 b n d) k = ix2 k d := fun k =>
    funext fun a => Fin.ext (by match a with | ⟨0, _⟩ => rfl | ⟨1, _⟩ => rfl)
  have e3 : idx_main_v4 (idx_main_v5 (ix3 b n d)) = ix1 d :=
    funext fun a => Fin.ext (by match a with | ⟨0, _⟩ => rfl)
  rw [val_main_v6_apply, val_main_v3_apply, val_main_v1_apply, val_main_v2_apply, val_main_cst_0_apply,
    val_main_v5_apply, val_main_v4_apply]
  simp only [val_main_v0_apply, val_main_cst_apply, e1, e2, e3, Ideal.addf_def, Ideal.hostDivf_def, Ideal.ofBits_def,
    Ideal.ofBits_zero_f32, zero_add]

/-- THE BRIDGE for the support set: the encoder of the re-indexed arguments, re-indexed back, is the reference's encoding.
    Index by index both sides pool row (b, n) over time and project it; the kernel scales by 2^-7 before the projection,
    the reference divides by 128 after it (Cert.Encode.scale_then_project). -/
theorem support_bridge (x : (⟨S32x50x128x64, .f32⟩ : BufTy).Contents (Elt Ideal)) (x3 : (⟨S64x256, .f32⟩ : BufTy).Contents (Elt Ideal))
    (x4 : (⟨S256, .f32⟩ : BufTy).Contents (Elt Ideal))
    (h1 : S32x50x128x64.ShapeCasts ⟨3, ![1600, 128, 64]⟩) (h2 : S256.ShapeCasts ⟨2, ![1, 256]⟩)
    (h3 : (⟨2, ![1600, 256]⟩ : Shape).ShapeCasts S32x50x256) :
    shapeCast S32x50x256 (Cert.Encode.enc 1600 (shapeCast ⟨3, ![1600, 128, 64]⟩ x h1) x3 (shapeCast ⟨2, ![1, 256]⟩ x4 h2)) h3
      = val_main_v6 (F := Ideal) x x3 x4 := by
  funext i
  obtain ⟨b, n, d, rfl⟩ : ∃ (b : Fin 32) (n : Fin 50) (d : Fin 256), i = ix3 b n d := ⟨i 0, i 1, i 2, eq_ix3 i⟩
  rw [support_apply]
  have hr : b.val * 50 + n.val < 1600 := by have := b.isLt; have := n.isLt; omega
  refine (shapeCast_apply _ h3 (ix3 b n d) (ix2 (⟨b.val * 50 + n.val, hr⟩ : Fin 1600) d)
    (by rw [Shape.rowMajor_val_two, Shape.rowMajor_val_three]; rfl)).trans ?_
  show Cert.Encode.encAt (shapeCast ⟨3, ![1600, 128, 64]⟩ x h1) x3 (shapeCast ⟨2, ![1, 256]⟩ x4 h2)
      (⟨b.val * 50 + n.val, hr⟩ : Fin 1600) d = _
  unfold Cert.Encode.encAt
  have hX : ∀ (t : Fin 128) (f : Fin 64),
      shapeCast ⟨3, ![1600, 128, 64]⟩ x h1 (ix3 (⟨b.val * 50 + n.val, hr⟩ : Fin 1600) t f) = x (ix4 b n t f) := fun t f =>
    shapeCast_apply x h1 _ (ix4 b n t f) (by rw [Shape.rowMajor_val_three, Shape.rowMajor_val_four]; rfl)
  have hB : shapeCast ⟨2, ![1, 256]⟩ x4 h2 (ix2 (0 : Fin 1) d) = x4 (ix1 d) :=
    shapeCast_apply x4 h2 _ (ix1 d) (by
      rw [Shape.rowMajor_val_two, Shape.rowMajor_val_one]
      show d.val = 0 * 256 + d.val
      omega)
  simp only [hX, hB]
  exact congrArg (· + x4 (ix1 d))
    (Cert.Encode.scale_then_project (fun f : Fin 64 => ∑ t : Fin 128, x (ix4 b n t f)) (fun f : Fin 64 => x3 (ix2 f d)))

/-! ## The query encoding -/

/-- The reference's query encoding at episode b, item n, feature d: the projection of the time sums, divided by 128,
    plus the bias. -/
theorem query_apply (x : (⟨S32x75x128x64, .f32⟩ : BufTy).Contents (Elt Ideal)) (x3 : (⟨S64x256, .f32⟩ : BufTy).Contents (Elt Ideal))
    (x4 : (⟨S256, .f32⟩ : BufTy).Contents (Elt Ideal)) (b : Fin 32) (n : Fin 75) (d : Fin 256) :
    val_main_v13 (F := Ideal) x x3 x4 (ix3 b n d)
      = Ideal.div (∑ f : Fin 64, (∑ t : Fin 128, x (ix4 b n t f)) * x3 (ix2 f d)) (Ideal.ofBits .f32 0x43000000#32)
        + x4 (ix1 d) := by
  have e1 : ∀ (k : Fin 64) (t : Fin 128), idx_main_v7 (lidx_main_v8 (ix3 b n d) k) t = ix4 b n t k := fun k t =>
    funext fun a => Fin.ext (by match a with | ⟨0, _⟩ => rfl | ⟨1, _⟩ => rfl | ⟨2, _⟩ => rfl | ⟨3, _⟩ => rfl)
  have e2 : ∀ k : Fin 64, ridx_main_v8 (ix3 b n d) k = ix2 k d := fun k =>
    funext fun a => Fin.ext (by match a with | ⟨0, _⟩ => rfl | ⟨1, _⟩ => rfl)
  have e3 : idx_main_v11 (idx_main_v12 (ix3 b n d)) = ix1 d :=
    funext fun a => Fin.ext (by match a with | ⟨0, _⟩ => rfl)
  rw [val_main_v13_apply, val_main_v10_apply, val_main_v8_apply, val_main_v9_apply, val_main_cst_2_apply,
    val_main_v12_apply, val_main_v11_apply]
  simp only [val_main_v7_apply, val_main_cst_1_apply, e1, e2, e3, Ideal.addf_def, Ideal.hostDivf_def, Ideal.ofBits_def,
    Ideal.ofBits_zero_f32, zero_add]

/-- THE BRIDGE for the query set: the encoder of the re-indexed arguments, re-indexed back, is the reference's encoding.
    Index by index both sides pool row (b, n) over time and project it; the kernel scales by 2^-7 before the projection,
    the reference divides by 128 after it (Cert.Encode.scale_then_project). -/
theorem query_bridge (x : (⟨S32x75x128x64, .f32⟩ : BufTy).Contents (Elt Ideal)) (x3 : (⟨S64x256, .f32⟩ : BufTy).Contents (Elt Ideal))
    (x4 : (⟨S256, .f32⟩ : BufTy).Contents (Elt Ideal))
    (h1 : S32x75x128x64.ShapeCasts ⟨3, ![2400, 128, 64]⟩) (h2 : S256.ShapeCasts ⟨2, ![1, 256]⟩)
    (h3 : (⟨2, ![2400, 256]⟩ : Shape).ShapeCasts S32x75x256) :
    shapeCast S32x75x256 (Cert.Encode.enc 2400 (shapeCast ⟨3, ![2400, 128, 64]⟩ x h1) x3 (shapeCast ⟨2, ![1, 256]⟩ x4 h2)) h3
      = val_main_v13 (F := Ideal) x x3 x4 := by
  funext i
  obtain ⟨b, n, d, rfl⟩ : ∃ (b : Fin 32) (n : Fin 75) (d : Fin 256), i = ix3 b n d := ⟨i 0, i 1, i 2, eq_ix3 i⟩
  rw [query_apply]
  have hr : b.val * 75 + n.val < 2400 := by have := b.isLt; have := n.isLt; omega
  refine (shapeCast_apply _ h3 (ix3 b n d) (ix2 (⟨b.val * 75 + n.val, hr⟩ : Fin 2400) d)
    (by rw [Shape.rowMajor_val_two, Shape.rowMajor_val_three]; rfl)).trans ?_
  show Cert.Encode.encAt (shapeCast ⟨3, ![2400, 128, 64]⟩ x h1) x3 (shapeCast ⟨2, ![1, 256]⟩ x4 h2)
      (⟨b.val * 75 + n.val, hr⟩ : Fin 2400) d = _
  unfold Cert.Encode.encAt
  have hX : ∀ (t : Fin 128) (f : Fin 64),
      shapeCast ⟨3, ![2400, 128, 64]⟩ x h1 (ix3 (⟨b.val * 75 + n.val, hr⟩ : Fin 2400) t f) = x (ix4 b n t f) := fun t f =>
    shapeCast_apply x h1 _ (ix4 b n t f) (by rw [Shape.rowMajor_val_three, Shape.rowMajor_val_four]; rfl)
  have hB : shapeCast ⟨2, ![1, 256]⟩ x4 h2 (ix2 (0 : Fin 1) d) = x4 (ix1 d) :=
    shapeCast_apply x4 h2 _ (ix1 d) (by
      rw [Shape.rowMajor_val_two, Shape.rowMajor_val_one]
      show d.val = 0 * 256 + d.val
      omega)
  simp only [hX, hB]
  exact congrArg (· + x4 (ix1 d))
    (Cert.Encode.scale_then_project (fun f : Fin 64 => ∑ t : Fin 128, x (ix4 b n t f)) (fun f : Fin 64 => x3 (ix2 f d)))

/-! ## The result -/

/-- The reference's result is the shared tail of the labels and of its own two encodings: the same operations in the
    same order. -/
theorem result_eq_tail (m : (ℓ : Loc nD τ sig) → Buf (Elt Ideal) ℓ) (c : Dev nD) :
    Cert.ReferenceIdeal.Value.res_main_v35 (F := Ideal) m c
      = Cert.KernelIdeal.Tail.tail (m ((c.tc : Thread nD τ).loc main_arg1))
          (val_main_v6 (F := Ideal) (m ((c.tc : Thread nD τ).loc main_arg0)) (m ((c.tc : Thread nD τ).loc main_arg3)) (m ((c.tc : Thread nD τ).loc main_arg4)))
          (val_main_v13 (F := Ideal) (m ((c.tc : Thread nD τ).loc main_arg2)) (m ((c.tc : Thread nD τ).loc main_arg3)) (m ((c.tc : Thread nD τ).loc main_arg4))) := by
  unfold Cert.ReferenceIdeal.Value.res_main_v35 Cert.KernelIdeal.Tail.tail
    val_main_v6 val_main_v5 val_main_v4 val_main_v3 val_main_v2 val_main_cst_0 val_main_v1 val_main_v0 val_main_cst
    val_main_v13 val_main_v12 val_main_v11 val_main_v10 val_main_v9 val_main_cst_2 val_main_v8 val_main_v7 val_main_cst_1
  rfl

end Cert.ReferenceIdeal.RefValue

end
-- ==== Proof.lean ====
/-
  A prototypical-network scorer: kernel against reference, at the exact (extended-real) reading.

  Both programs encode a support set (32 episodes of 50 items) and a query set (32 episodes of 75 items): each item,
  128 time steps of 64 features, is pooled over time and projected to 256 features with a bias,
      encode(x)[d] = ( sum over f of mean over t of x[t, f] * W[f, d] ) + b[d].
  They then form, per episode, the 5 class prototypes (label-weighted means of the encoded support items) and return
  minus the Euclidean distance from every encoded query to every prototype, as a 2400 by 5 array.

  The kernel's program encodes with two pallas calls (rows in blocks of 200; time sum, scale by 2^-7, matrix product
  with the projection, add the bias row), between reshapes; the reference sums over time, contracts with the
  projection, divides by 128 and adds the bias.  What follows the encodings is the same sequence of operations in
  both programs.  So the claim reduces to: the two encodings agree, index by index — which is the single law
      sum over f of (S f * 2^-7) * w f  =  (sum over f of S f * w f) / 128
  on the extended reals (a nonnegative finite factor distributes over any sum there), so the precondition is never used.

  The modules: EncodeLaw (the law and the two constants), EncodeSpec (the encoder as one whole-array function),
  KernelRow (one stored entry of the kernel body), KernelArrays (from a grid point's block to the output array),
  KernelRun (the run with its result named), TailSpec (what follows the encodings, as one function), KernelValue
  (the kernel's result as that function of encoders of its arguments), RefValue (the reference's encodings and result,
  and the bridge), LibPlainDot (a plain matrix product as a sum).
-/
import proofs.«155804_j29351806501536_2_alg».proof.Defs
import proofs.«155804_j29351806501536_2_alg».proof.Proof.Gen.Kernel
import proofs.«155804_j29351806501536_2_alg».proof.Proof.Gen.Kernel.Skeleton
import proofs.«155804_j29351806501536_2_alg».proof.Proof.Gen.Kernel.Launch
import proofs.«155804_j29351806501536_2_alg».proof.Proof.Gen.Kernel.Points
import proofs.«155804_j29351806501536_2_alg».proof.Proof.Gen.Kernel.Frame
import proofs.«155804_j29351806501536_2_alg».proof.Proof.Gen.KernelIdeal
import proofs.«155804_j29351806501536_2_alg».proof.Proof.Gen.KernelIdeal.Skeleton
import proofs.«155804_j29351806501536_2_alg».proof.Proof.Gen.KernelIdeal.Launch
import proofs.«155804_j29351806501536_2_alg».proof.Proof.Gen.KernelIdeal.Points
import proofs.«155804_j29351806501536_2_alg».proof.Proof.Gen.KernelIdeal.Frame
import proofs.«155804_j29351806501536_2_alg».proof.Proof.Gen.ReferenceIdeal
import proofs.«155804_j29351806501536_2_alg».proof.Proof.Gen.Pre_finite_inputs
import proofs.«155804_j29351806501536_2_alg».proof.Proof.Gen.ReferenceIdeal.Run
import proofs.«155804_j29351806501536_2_alg».proof.Proof.Gen.ReferenceIdeal.Read
import proofs.«155804_j29351806501536_2_alg».proof.Proof.KernelValue
import proofs.«155804_j29351806501536_2_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does its exact reading. -/
theorem frame_kernelIdeal : Cert.frame_KernelIdeal := fun m ρ _ => Cert.KernelIdeal.Gen.frame m ρ

/-- The reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The exact reading rewrote no operation of the kernel program. -/
theorem preserves : Cert.preserves_Kernel_KernelIdeal := trivial

/-- From memories that agree on the arguments both programs end with the same 2400 by 5 array: the shared tail of
    the labels and of encodings that agree index by index. -/
theorem algebraic : Cert.algebraic_KernelIdeal_ReferenceIdeal := by
  intro m ρ m' ρ' _ hagree
  refine ⟨fun c => Cert.KernelIdeal.ValueRead.kernelOut m c, Cert.KernelIdeal.ValueRead.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_eq_tail, (hagree c).1, (hagree c).2.1, (hagree c).2.2.1, (hagree c).2.2.2.1,
    (hagree c).2.2.2.2]
  exact (congrArg₂ (Cert.KernelIdeal.Tail.tail _) (Cert.ReferenceIdeal.RefValue.support_bridge _ _ _ _ _ _)
    (Cert.ReferenceIdeal.RefValue.query_bridge _ _ _ _ _ _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
